-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x192x128x128 : Shape := ⟨4, ![8, 192, 128, 128]⟩
abbrev S192x9 : Shape := ⟨2, ![192, 9]⟩
abbrev S192 : Shape := ⟨1, ![192]⟩
abbrev S_ : Shape := ⟨0, ![]⟩

class Facts : Prop where
  bcast_S_S8x192x128x128 : S_.BroadcastsInDim S8x192x128x128 (![] : Fin 0 → Fin S8x192x128x128.rank)
  reducesTo_S8x192x128x128_S_d0_1_2_3 : S8x192x128x128.ReducesTo [0, 1, 2, 3] S_
  h_S_ : 0 < S_.numel
  bcast_S_S192x9 : S_.BroadcastsInDim S192x9 (![] : Fin 0 → Fin S192x9.rank)
  reducesTo_S192x9_S_d0_1 : S192x9.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  main_v18

def fn {F : FTy → Type} [FloatOps F] (main_arg0 : FVec F S8x192x128x128 .f32) (main_arg1 : FVec F S192x9 .f32) (main_arg2 : FVec F S192 .f32) (main_arg3 : FVec F S192 .f32) : IVec S_ 1 :=
  let main_v0 : FVec F S8x192x128x128 .f32 := Host.absf main_arg0
  let main_cst : FVec F S_ .f32 := constant S_ .f32 0x7F800000#32
  let main_v1 : FVec F S8x192x128x128 .f32 := broadcastInDim S8x192x128x128 ![] bcast_S_S8x192x128x128 main_cst
  let main_v2 : IVec S8x192x128x128 1 := cmpf .olt main_v0 main_v1
  let main_c : IVec S_ 1 := constantI S_ 1 1#1
  let main_v3 : IVec S_ 1 := (fun x v => Host.reduce IntOp.andi x v reducesTo_S8x192x128x128_S_d0_1_2_3 h_S_) main_v2 main_c
  let main_v4 : FVec F S192x9 .f32 := Host.absf main_arg1
  let main_cst_0 : FVec F S_ .f32 := constant S_ .f32 0x7F800000#32
  let main_v5 : FVec F S192x9 .f32 := broadcastInDim S192x9 ![] bcast_S_S192x9 main_cst_0
  let main_v6 : IVec S192x9 1 := cmpf .olt main_v4 main_v5
  let main_c_1 : IVec S_ 1 := constantI S_ 1 1#1
  let main_v7 : IVec S_ 1 := (fun x v => Host.reduce IntOp.andi x v reducesTo_S192x9_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S192 .f32 := Host.absf main_arg3
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_v13 main_v16
-- ==== Kernel.lean ====
abbrev S8x192x128x128 : Shape := ⟨4, ![8, 192, 128, 128]⟩
abbrev S192x9 : Shape := ⟨2, ![192, 9]⟩
abbrev S192 : Shape := ⟨1, ![192]⟩
abbrev S192x1 : Shape := ⟨2, ![192, 1]⟩
abbrev S1x24x128x128 : Shape := ⟨4, ![1, 24, 128, 128]⟩
abbrev S24x9 : Shape := ⟨2, ![24, 9]⟩
abbrev S24x1 : Shape := ⟨2, ![24, 1]⟩
abbrev S24x128x128 : Shape := ⟨3, ![24, 128, 128]⟩
abbrev S24 : Shape := ⟨1, ![24]⟩
abbrev S24x1x1 : Shape := ⟨3, ![24, 1, 1]⟩
abbrev S24x128x1 : Shape := ⟨3, ![24, 128, 1]⟩
abbrev S24x128x130 : Shape := ⟨3, ![24, 128, 130]⟩
abbrev S24x1x130 : Shape := ⟨3, ![24, 1, 130]⟩
abbrev S24x130x130 : Shape := ⟨3, ![24, 130, 130]⟩

abbrev nBuf : Space → Nat
  | .hbm => 7
  | .vmem => 10
  | .smem => 0
  | _ => 0

abbrev bufTy : (tb : Table) → Fin (tcTables nBuf tb) → BufTy
  | .hbm, ⟨0, _⟩ => ⟨S8x192x128x128, .f32⟩
  | .hbm, ⟨1, _⟩ => ⟨S192x9, .f32⟩
  | .hbm, ⟨2, _⟩ => ⟨S192, .f32⟩
  | .hbm, ⟨3, _⟩ => ⟨S192, .f32⟩
  | .hbm, ⟨4, _⟩ => ⟨S192x1, .f32⟩
  | .hbm, ⟨5, _⟩ => ⟨S192x1, .f32⟩
  | .hbm, ⟨6, _⟩ => ⟨S8x192x128x128, .f32⟩
  | .local _ .vmem, ⟨0, _⟩ => ⟨S1x24x128x128, .f32⟩
  | .local _ .vmem, ⟨1, _⟩ => ⟨S1x24x128x128, .f32⟩
  | .local _ .vmem, ⟨2, _⟩ => ⟨S24x9, .f32⟩
  | .local _ .vmem, ⟨3, _⟩ => ⟨S24x9, .f32⟩
  | .local _ .vmem, ⟨4, _⟩ => ⟨S24x1, .f32⟩
  | .local _ .vmem, ⟨5, _⟩ => ⟨S24x1, .f32⟩
  | .local _ .vmem, ⟨6, _⟩ => ⟨S24x1, .f32⟩
  | .local _ .vmem, ⟨7, _⟩ => ⟨S24x1, .f32⟩
  | .local _ .vmem, ⟨8, _⟩ => ⟨S1x24x128x128, .f32⟩
  | .local _ .vmem, ⟨9, _⟩ => ⟨S1x24x128x128, .f32⟩
  | _, _ => ⟨S8x192x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x24x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S24x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S24x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S24x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x24x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S192_S192x1 : S192.ShapeCasts S192x1
  inb_S1x24x128x128_S1x24x128x128_0_0_0_0 : ∀ a, (![0, 0, 0, 0] : Fin 4 → Nat) a + S1x24x128x128.size a ≤ S1x24x128x128.size a
  h_S1x24x128x128 : 0 < S1x24x128x128.numel
  shapeCasts_S1x24x128x128_S24x128x128 : S1x24x128x128.ShapeCasts S24x128x128
  inb_S24x1_S24x1_0_0 : ∀ a, (![0, 0] : Fin 2 → Nat) a + S24x1.size a ≤ S24x1.size a
  h_S24x1 : 0 < S24x1.numel
  shapeCasts_S24x1_S24 : S24x1.ShapeCasts S24
  shapeCasts_S24_S24x1x1 : S24.ShapeCasts S24x1x1
  broadcasts_S24x1x1_S24x128x128 : S24x1x1.Broadcasts S24x128x128
  concatenates_S24x128x1_S24x128x128_S24x128x1_S24x128x130_d2 : Shape.Concatenates [S24x128x1, S24x128x128, S24x128x1] S24x128x130 2
  concatenates_S24x1x130_S24x128x130_S24x1x130_S24x130x130_d1 : Shape.Concatenates [S24x1x130, S24x128x130, S24x1x130] S24x130x130 1
  slices_S24x130x130_o0_0_0_S24x128x128 : S24x130x130.Slices ![0, 0, 0] S24x128x128
  inb_S24x9_S24x1_0_0 : ∀ a, (![0, 0] : Fin 2 → Nat) a + S24x1.size a ≤ S24x9.size a
  slices_S24x130x130_o0_0_1_S24x128x128 : S24x130x130.Slices ![0, 0, 1] S24x128x128
  inb_S24x9_S24x1_0_1 : ∀ a, (![0, 1] : Fin 2 → Nat) a + S24x1.size a ≤ S24x9.size a
  slices_S24x130x130_o0_0_2_S24x128x128 : S24x130x130.Slices ![0, 0, 2] S24x128x128
  inb_S24x9_S24x1_0_2 : ∀ a, (![0, 2] : Fin 2 → Nat) a + S24x1.size a ≤ S24x9.size a
  slices_S24x130x130_o0_1_0_S24x128x128 : S24x130x130.Slices ![0, 1, 0] S24x128x128
  inb_S24x9_S24x1_0_3 : ∀ a, (![0, 3] : Fin 2 → Nat) a + S24x1.size a ≤ S24x9.size a
  slices_S24x130x130_o0_1_1_S24x128x128 : S24x130x130.Slices ![0, 1, 1] S24x128x128
  inb_S24x9_S24x1_0_4 : ∀ a, (![0, 4] : Fin 2 → Nat) a + S24x1.size a ≤ S24x9.size a
  slices_S24x130x130_o0_1_2_S24x128x128 : S24x130x130.Slices ![0, 1, 2] S24x128x128
  inb_S24x9_S24x1_0_5 : ∀ a, (![0, 5] : Fin 2 → Nat) a + S24x1.size a ≤ S24x9.size a
  slices_S24x130x130_o0_2_0_S24x128x128 : S24x130x130.Slices ![0, 2, 0] S24x128x128
  inb_S24x9_S24x1_0_6 : ∀ a, (![0, 6] : Fin 2 → Nat) a + S24x1.size a ≤ S24x9.size a
  slices_S24x130x130_o0_2_1_S24x128x128 : S24x130x130.Slices ![0, 2, 1] S24x128x128
  inb_S24x9_S24x1_0_7 : ∀ a, (![0, 7] : Fin 2 → Nat) a + S24x1.size a ≤ S24x9.size a
  slices_S24x130x130_o0_2_2_S24x128x128 : S24x130x130.Slices ![0, 2, 2] S24x128x128
  inb_S24x9_S24x1_0_8 : ∀ a, (![0, 8] : Fin 2 → Nat) a + S24x1.size a ≤ S24x9.size a
  shapeCasts_S24x128x128_S1x24x128x128 : S24x128x128.ShapeCasts S1x24x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x128x128.size a ≤ S8x192x128x128.size a
  hwx0_0 : ∀ i : grid0.Coords, EltTy.bits .f32 = 32 ∨ (Rect.block (s := S8x192x128x128) S1x24x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x9.size a ≤ S192x9.size a
  hwx0_1 : ∀ i : grid0.Coords, EltTy.bits .f32 = 32 ∨ (Rect.block (s := S192x9) S24x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S24x1.size a ≤ S192x1.size a
  hwx0_2 : ∀ i : grid0.Coords, EltTy.bits .f32 = 32 ∨ (Rect.block (s := S192x1) S24x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S24x1.size a ≤ S192x1.size a
  hwx0_3 : ∀ i : grid0.Coords, EltTy.bits .f32 = 32 ∨ (Rect.block (s := S192x1) S24x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x24x128x128.size a ≤ S8x192x128x128.size a
  hwx0_4 : ∀ i : grid0.Coords, EltTy.bits .f32 = 32 ∨ (Rect.block (s := S8x192x128x128) S1x24x128x128.size (cc0_transform_4 i) (hinb0_4 i)).WholeWords (EltTy.packing .f32)

variable [Facts₀]

abbrev win0_0 : Pipeline.Window sig grid0 :=
  Pipeline.Window.ofSpec (Memref.whole main_arg0) S1x24x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S24x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S24x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x24x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x192x128x128 : Shape := ⟨4, ![8, 192, 128, 128]⟩
abbrev S192x9 : Shape := ⟨2, ![192, 9]⟩
abbrev S192 : Shape := ⟨1, ![192]⟩
abbrev S_ : Shape := ⟨0, ![]⟩
abbrev S8x192x130x130 : Shape := ⟨4, ![8, 192, 130, 130]⟩
abbrev S8x192x1x128x128 : Shape := ⟨5, ![8, 192, 1, 128, 128]⟩
abbrev S8x192x9x128x128 : Shape := ⟨5, ![8, 192, 9, 128, 128]⟩
abbrev S1x192x1x1 : Shape := ⟨4, ![1, 192, 1, 1]⟩
abbrev S1x192x9x1x1 : Shape := ⟨5, ![1, 192, 9, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x192x128x128, .f32⟩
  | .hbm, ⟨1, _⟩ => ⟨S192x9, .f32⟩
  | .hbm, ⟨2, _⟩ => ⟨S192, .f32⟩
  | .hbm, ⟨3, _⟩ => ⟨S192, .f32⟩
  | .hbm, ⟨4, _⟩ => ⟨S_, .i32⟩
  | .hbm, ⟨5, _⟩ => ⟨S_, .f32⟩
  | .hbm, ⟨6, _⟩ => ⟨S8x192x130x130, .f32⟩
  | .hbm, ⟨7, _⟩ => ⟨S8x192x128x128, .f32⟩
  | .hbm, ⟨8, _⟩ => ⟨S8x192x128x128, .f32⟩
  | .hbm, ⟨9, _⟩ => ⟨S8x192x128x128, .f32⟩
  | .hbm, ⟨10, _⟩ => ⟨S8x192x128x128, .f32⟩
  | .hbm, ⟨11, _⟩ => ⟨S8x192x128x128, .f32⟩
  | .hbm, ⟨12, _⟩ => ⟨S8x192x128x128, .f32⟩
  | .hbm, ⟨13, _⟩ => ⟨S8x192x128x128, .f32⟩
  | .hbm, ⟨14, _⟩ => ⟨S8x192x128x128, .f32⟩
  | .hbm, ⟨15, _⟩ => ⟨S8x192x128x128, .f32⟩
  | .hbm, ⟨16, _⟩ => ⟨S8x192x1x128x128, .f32⟩
  | .hbm, ⟨17, _⟩ => ⟨S8x192x1x128x128, .f32⟩
  | .hbm, ⟨18, _⟩ => ⟨S8x192x1x128x128, .f32⟩
  | .hbm, ⟨19, _⟩ => ⟨S8x192x1x128x128, .f32⟩
  | .hbm, ⟨20, _⟩ => ⟨S8x192x1x128x128, .f32⟩
  | .hbm, ⟨21, _⟩ => ⟨S8x192x1x128x128, .f32⟩
  | .hbm, ⟨22, _⟩ => ⟨S8x192x1x128x128, .f32⟩
  | .hbm, ⟨23, _⟩ => ⟨S8x192x1x128x128, .f32⟩
  | .hbm, ⟨24, _⟩ => ⟨S8x192x1x128x128, .f32⟩
  | .hbm, ⟨25, _⟩ => ⟨S8x192x9x128x128, .f32⟩
  | .hbm, ⟨26, _⟩ => ⟨S1x192x1x1, .f32⟩
  | .hbm, ⟨27, _⟩ => ⟨S8x192x128x128, .f32⟩
  | .hbm, ⟨28, _⟩ => ⟨S8x192x128x128, .f32⟩
  | .hbm, ⟨29, _⟩ => ⟨S1x192x1x1, .f32⟩
  | .hbm, ⟨30, _⟩ => ⟨S8x192x128x128, .f32⟩
  | .hbm, ⟨31, _⟩ => ⟨S8x192x128x128, .f32⟩
  | .hbm, ⟨32, _⟩ => ⟨S8x192x128x128, .f32⟩
  | .hbm, ⟨33, _⟩ => ⟨S8x192x128x128, .f32⟩
  | .hbm, ⟨34, _⟩ => ⟨S_, .f32⟩
  | .hbm, ⟨35, _⟩ => ⟨S8x192x128x128, .f32⟩
  | .hbm, ⟨36, _⟩ => ⟨S8x192x128x128, .f32⟩
  | .hbm, ⟨37, _⟩ => ⟨S_, .f32⟩
  | .hbm, ⟨38, _⟩ => ⟨S8x192x128x128, .f32⟩
  | .hbm, ⟨39, _⟩ => ⟨S8x192x128x128, .f32⟩
  | .hbm, ⟨40, _⟩ => ⟨S8x192x1x128x128, .f32⟩
  | .hbm, ⟨41, _⟩ => ⟨S1x192x9x1x1, .f32⟩
  | .hbm, ⟨42, _⟩ => ⟨S8x192x9x128x128, .f32⟩
  | .hbm, ⟨43, _⟩ => ⟨S8x192x9x128x128, .f32⟩
  | .hbm, ⟨44, _⟩ => ⟨S8x192x9x128x128, .f32⟩
  | .hbm, ⟨45, _⟩ => ⟨S8x192x9x128x128, .f32⟩
  | .hbm, ⟨46, _⟩ => ⟨S_, .f32⟩
  | .hbm, ⟨47, _⟩ => ⟨S8x192x128x128, .f32⟩
  | _, _ => ⟨S8x192x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_1 : Ref sig .tc := ⟨.hbm, 46, rfl⟩
abbrev main_v38 : Ref sig .tc := ⟨.hbm, 47, rfl⟩

abbrev nD : Nat := 1
abbrev τ : Topo := Topo.v7x

variable {F : FTy → Type} [FloatOps F]

class Facts₀ : Prop where
  pads_S8x192x128x128_S8x192x130x130_000_000_110_110 : S8x192x128x128.Pads (![0, 0, 1, 1] : Fin 4 → Nat) ![0, 0, 1, 1] ![0, 0, 0, 0] S8x192x130x130
  h_S_ : 0 < S_.numel
  slices_S8x192x130x130_S8x192x128x128_0_0_0_0 : S8x192x130x130.Slices ![0, 0, 0, 0] S8x192x128x128
  slices_S8x192x130x130_S8x192x128x128_0_0_0_1 : S8x192x130x130.Slices ![0, 0, 0, 1] S8x192x128x128
  slices_S8x192x130x130_S8x192x128x128_0_0_0_2 : S8x192x130x130.Slices ![0, 0, 0, 2] S8x192x128x128
  slices_S8x192x130x130_S8x192x128x128_0_0_1_0 : S8x192x130x130.Slices ![0, 0, 1, 0] S8x192x128x128
  slices_S8x192x130x130_S8x192x128x128_0_0_1_1 : S8x192x130x130.Slices ![0, 0, 1, 1] S8x192x128x128
  slices_S8x192x130x130_S8x192x128x128_0_0_1_2 : S8x192x130x130.Slices ![0, 0, 1, 2] S8x192x128x128
  slices_S8x192x130x130_S8x192x128x128_0_0_2_0 : S8x192x130x130.Slices ![0, 0, 2, 0] S8x192x128x128
  slices_S8x192x130x130_S8x192x128x128_0_0_2_1 : S8x192x130x130.Slices ![0, 0, 2, 1] S8x192x128x128
  slices_S8x192x130x130_S8x192x128x128_0_0_2_2 : S8x192x130x130.Slices ![0, 0, 2, 2] S8x192x128x128
  bcast_S8x192x128x128_S8x192x1x128x128_0_1_3_4 : S8x192x128x128.BroadcastsInDim S8x192x1x128x128 (![0, 1, 3, 4] : Fin 4 → Fin S8x192x1x128x128.rank)
  concatenates_S8x192x1x128x128_S8x192x1x128x128_S8x192x1x128x128_S8x192x1x128x128_S8x192x1x128x128_S8x192x1x128x128_S8x192x1x128x128_S8x192x1x128x128_S8x192x1x128x128_S8x192x9x128x128_d2 : Shape.Concatenates [S8x192x1x128x128, S8x192x1x128x128, S8x192x1x128x128, S8x192x1x128x128, S8x192x1x128x128, S8x192x1x128x128, S8x192x1x128x128, S8x192x1x128x128, S8x192x1x128x128] S8x192x9x128x128 2
  bcast_S192_S1x192x1x1_1 : S192.BroadcastsInDim S1x192x1x1 (![1] : Fin 1 → Fin S1x192x1x1.rank)
  bcast_S1x192x1x1_S8x192x128x128_0_1_2_3 : S1x192x1x1.BroadcastsInDim S8x192x128x128 (![0, 1, 2, 3] : Fin 4 → Fin S8x192x128x128.rank)
  bcast_S_S8x192x128x128 : S_.BroadcastsInDim S8x192x128x128 (![] : Fin 0 → Fin S8x192x128x128.rank)
  bcast_S192x9_S1x192x9x1x1_1_2 : S192x9.BroadcastsInDim S1x192x9x1x1 (![1, 2] : Fin 2 → Fin S1x192x9x1x1.rank)
  bcast_S8x192x1x128x128_S8x192x9x128x128_0_1_2_3_4 : S8x192x1x128x128.BroadcastsInDim S8x192x9x128x128 (![0, 1, 2, 3, 4] : Fin 5 → Fin S8x192x9x128x128.rank)
  bcast_S1x192x9x1x1_S8x192x9x128x128_0_1_2_3_4 : S1x192x9x1x1.BroadcastsInDim S8x192x9x128x128 (![0, 1, 2, 3, 4] : Fin 5 → Fin S8x192x9x128x128.rank)
  reducesTo_S8x192x9x128x128_S8x192x128x128_d2 : S8x192x9x128x128.ReducesTo [2] S8x192x128x128

variable [Facts₀]

class Facts : Prop extends Facts₀ where

variable [Facts]
-- ==== Proof.MaxPlus.lean ====
/-
  The function both programs compute, index by index, over the extended reals.

  For an image `x[b, c, h, w]` (8 × 192 × 128 × 128), per-channel taps `k[c, n]` with `n = 3·i + j` running over a
  3 × 3 window, and per-channel gate coefficients `gw[c]`, `gb[c]`:

      θ[b, c, h, w]   = σ(x[b, c, h, w] · gw[c] + gb[c]),          σ(z) = 1 / (1 + e^(−z))
      out[b, c, h, w] = max over n < 9 of ( x̄[b, c, h + n / 3, w + n % 3] + θ[b, c, h, w] · k[c, n] )

  where `x̄` is `x` with a border of one zero on every side of its last two axes (so `x̄[·, ·, r, s] = x[·, ·, r − 1, s − 1]`
  for `1 ≤ r, s ≤ 128` and `0` on the border). The maximum is written as the left-nested chain of binary maxima over
  `n = 0, …, 8`; `fold_max_nine` says that the fold of `max` from `−∞` over the nine taps is the same number.
  No law used here needs an entry to be finite: `max` on the extended reals is commutative, associative and has `−∞`
  as its identity.
-/
import Idealize.ShloMosaic.PureOps.Ideal
import Idealize.ShloMosaic.Lib.ValueIdx

noncomputable section

namespace Cert.MaxPlus

open Idealize.ShloMosaic Idealize.ShloMosaic.ValueIdx

/-- The image's shape `[8, 192, 128, 128]`, the taps' `[192, 9]` and the gate coefficients' `[192]`. -/
abbrev Img : Shape := ⟨4, ![8, 192, 128, 128]⟩
abbrev Taps : Shape := ⟨2, ![192, 9]⟩
abbrev Chan : Shape := ⟨1, ![192]⟩

/-- The zero-bordered image at row `r`, column `s` of the 130 × 130 plane `(b, c)`: the image's entry one up and one
    to the left when `(r, s)` is off the border, zero on it. -/
def padded (x : Img.Idx → EReal) (b : Fin 8) (c : Fin 192) (r s : Nat) : EReal :=
  if h : (1 ≤ r ∧ r ≤ 128) ∧ (1 ≤ s ∧ s ≤ 128) then x (ix4 b c ⟨r - 1, by omega⟩ ⟨s - 1, by omega⟩) else 0

/-- The gate `σ(x · gw[c] + gb[c])` at an index of the image. -/
def gate (x : Img.Idx → EReal) (gw gb : Chan.Idx → EReal) (i : Img.Idx) : EReal :=
  Ideal.logistic (x i * gw (ix1 (i 1)) + gb (ix1 (i 1)))

/-- Tap `n` of the window at `i`: the bordered image `n / 3` rows down and `n % 3` columns right of `i`, plus the gate
    times the channel's `n`-th coefficient. -/
def tap (x : Img.Idx → EReal) (k : Taps.Idx → EReal) (gw gb : Chan.Idx → EReal) (i : Img.Idx) (n : Fin 9) : EReal :=
  padded x (i 0) (i 1) ((i 2).val + n.val / 3) ((i 3).val + n.val % 3) + gate x gw gb i * k (ix2 (i 1) n)

/-- The nine numbers' maximum, as the chain of binary maxima taken from tap 0 upwards. -/
def chain (f : Fin 9 → EReal) : EReal :=
  max (max (max (max (max (max (max (max (f 0) (f 1)) (f 2)) (f 3)) (f 4)) (f 5)) (f 6)) (f 7)) (f 8)

/-- The result: at every index the maximum of the window's nine taps. -/
def maxPlus (x : Img.Idx → EReal) (k : Taps.Idx → EReal) (gw gb : Chan.Idx → EReal) : Img.Idx → EReal :=
  fun i => chain (tap x k gw gb i)

/-- Folding `max` from `−∞` over the nine taps, in whatever order, is the chain of binary maxima: both are the least
    upper bound of the nine numbers. -/
theorem fold_max_nine (f : Fin 9 → EReal) : (Finset.univ : Finset (Fin 9)).fold max ⊥ f = chain f := by
  have hle : ∀ n : Fin 9, f n ≤ (Finset.univ : Finset (Fin 9)).fold max ⊥ f := fun n =>
    (Finset.le_fold_max (f n)).2 (Or.inr ⟨n, Finset.mem_univ n, le_rfl⟩)
  apply le_antisymm
  · refine (Finset.fold_max_le _).2 ⟨bot_le, fun n _ => ?_⟩
    have h0 : f 0 ≤ chain f := by unfold chain; simp only [le_max_iff, le_refl, true_or, or_true]
    have h1 : f 1 ≤ chain f := by unfold chain; simp only [le_max_iff, le_refl, true_or, or_true]
    have h2 : f 2 ≤ chain f := by unfold chain; simp only [le_max_iff, le_refl, true_or, or_true]
    have h3 : f 3 ≤ chain f := by unfold chain; simp only [le_max_iff, le_refl, true_or, or_true]
    have h4 : f 4 ≤ chain f := by unfold chain; simp only [le_max_iff, le_refl, true_or, or_true]
    have h5 : f 5 ≤ chain f := by unfold chain; simp only [le_max_iff, le_refl, true_or, or_true]
    have h6 : f 6 ≤ chain f := by unfold chain; simp only [le_max_iff, le_refl, true_or, or_true]
    have h7 : f 7 ≤ chain f := by unfold chain; simp only [le_max_iff, le_refl, true_or, or_true]
    have h8 : f 8 ≤ chain f := by unfold chain; simp only [le_max_iff, le_refl, true_or, or_true]
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
  · unfold chain
    simp only [max_le_iff]
    exact ⟨⟨⟨⟨⟨⟨⟨⟨hle 0, hle 1⟩, hle 2⟩, hle 3⟩, hle 4⟩, hle 5⟩, hle 6⟩, hle 7⟩, hle 8⟩

end Cert.MaxPlus

end
-- ==== Proof.KernelTaps.lean ====
/-
  The kernel's body, read at one index `(0, c, h, w)` of its `[1, 24, 128, 128]` output block.

  The body builds a zero-bordered copy of its image block (a zero column on each side of the last axis, then a zero row
  above and below), takes the nine `128 × 128` windows of it at offsets `(di, dj)`, `di, dj ≤ 2`, and keeps a running
  maximum of `window + gate · coefficient`, the gate `σ(block · gw + gb)` and the nine coefficients each a column `[24, 1]`
  repeated over the block. Read at an index:
  * a column repeated over the block reads the column's entry at the channel (`column_read`);
  * a window reads the bordered block `di` rows down and `dj` columns right (`window_read`);
  * the bordered block is the image block off the border and zero on it (`bordered_read`, from the two joins read
    piece by piece);
  * so the stored value is the nested maximum of the nine terms `blockTap` (`body_read`).
-/
import proofs.«158425_j28527172780064_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

section Layout
variable {α : Type}

/-- A column `[24, 1]`, flattened, given two unit axes and repeated over `[24, 128, 128]`, reads at `(c, h, w)` the
    column's entry `c`. -/
theorem column_read (v : S24x1.Idx → α) (h1 : S24x1.ShapeCasts S24) (h2 : S24.ShapeCasts S24x1x1)
    (h3 : S24x1x1.Broadcasts S24x128x128) (c : Fin 24) (h w : Fin 128) :
    broadcastTo S24x128x128 (shapeCast S24x1x1 (shapeCast S24 v h1) h2) h3 (ix3 c h w) = v (ix2 c (0 : Fin 1)) := by
  rw [broadcastTo_apply _ h3 (ix3 c h w) (ix3 c (0 : Fin 1) (0 : Fin 1)) (fun a => by
    match a with
    | ⟨0, _⟩ => show c.val = if (24 : Nat) = 1 then 0 else c.val; rw [if_neg (by decide)]
    | ⟨1, _⟩ => show 0 = if (1 : Nat) = 1 then 0 else h.val; rw [if_pos rfl]
    | ⟨2, _⟩ => show 0 = if (1 : Nat) = 1 then 0 else w.val; rw [if_pos rfl])]
  rw [shapeCast_apply _ h2 (ix3 c (0 : Fin 1) (0 : Fin 1)) (ix1 c) (by
    rw [Shape.rowMajor_val_one, Shape.rowMajor_val_three]; show c.val = (c.val * 1 + 0) * 1 + 0; omega)]
  exact shapeCast_apply _ h1 (ix1 c) (ix2 c (0 : Fin 1)) (by
    rw [Shape.rowMajor_val_two, Shape.rowMajor_val_one]; show c.val * 1 + 0 = c.val; omega)

/-- The window at offset `(di, dj)` of a `[24, 130, 130]` array reads at `(c, h, w)` the array at `(c, h + di, w + dj)`. -/
theorem window_read (V : S24x130x130.Idx → α) (di dj : Nat) (hs : S24x130x130.Slices ![0, di, dj] S24x128x128)
    (c : Fin 24) (h w : Fin 128) :
    extractStridedSlice S24x128x128 ![0, di, dj] V hs (ix3 c h w)
      = V (ix3 c (⟨h.val + di, by have e : di + 128 ≤ 130 := hs.2 (1 : Fin 3); have := h.isLt; omega⟩ : Fin 130)
            (⟨w.val + dj, by have e : dj + 128 ≤ 130 := hs.2 (2 : Fin 3); have := w.isLt; omega⟩ : Fin 130)) :=
  extractStridedSlice_apply _ V hs (ix3 c h w) _ (fun a => by
    match a with
    | ⟨0, _⟩ => show c.val = 0 + c.val; omega
    | ⟨1, _⟩ => show h.val + di = di + h.val; omega
    | ⟨2, _⟩ => show w.val + dj = dj + w.val; omega)

/-! ### A row above and below: `[24, 1, 130] ++ [24, 128, 130] ++ [24, 1, 130]` along the rows -/

theorem rows_top (z0 : S24x1x130.Idx → α) (mid : S24x128x130.Idx → α) (z1 : S24x1x130.Idx → α)
    (hc : Shape.Concatenates (([⟨S24x1x130, z0⟩, ⟨S24x128x130, mid⟩, ⟨S24x1x130, z1⟩] : List ((s : Shape) × (s.Idx → α))).map (·.1)) S24x130x130 1)
    (c : Fin 24) (r s : Fin 130) (hr : r.val = 0) :
    concatenate S24x130x130 1 [⟨S24x1x130, z0⟩, ⟨S24x128x130, mid⟩, ⟨S24x1x130, z1⟩] hc (ix3 c r s) = z0 (ix3 c (0 : Fin 1) s) := by
  refine concatenate_apply_piece (1 : Fin 3) _ hc (ix3 c r s) 0 (by show 0 < 3; omega) S24x1x130 z0 rfl rfl 0 ?_
    (ix3 c (0 : Fin 1) s) (fun a ha => ?_) ?_
  · rfl
  · match a with
    | ⟨0, _⟩ => rfl
    | ⟨1, _⟩ => exact absurd rfl ha
    | ⟨2, _⟩ => rfl
  · show 0 + 0 = r.val; omega

theorem rows_mid (z0 : S24x1x130.Idx → α) (mid : S24x128x130.Idx → α) (z1 : S24x1x130.Idx → α)
    (hc : Shape.Concatenates (([⟨S24x1x130, z0⟩, ⟨S24x128x130, mid⟩, ⟨S24x1x130, z1⟩] : List ((s : Shape) × (s.Idx → α))).map (·.1)) S24x130x130 1)
    (c : Fin 24) (r s : Fin 130) (hr : 1 ≤ r.val ∧ r.val ≤ 128) :
    concatenate S24x130x130 1 [⟨S24x1x130, z0⟩, ⟨S24x128x130, mid⟩, ⟨S24x1x130, z1⟩] hc (ix3 c r s) = mid (ix3 c (⟨r.val - 1, by omega⟩ : Fin 128) s) := by
  refine concatenate_apply_piece (1 : Fin 3) _ hc (ix3 c r s) 1 (by show 1 < 3; omega) S24x128x130 mid rfl rfl 1 ?_
    (ix3 c (⟨r.val - 1, by omega⟩ : Fin 128) s) (fun a ha => ?_) ?_
  · rfl
  · match a with
    | ⟨0, _⟩ => rfl
    | ⟨1, _⟩ => exact absurd rfl ha
    | ⟨2, _⟩ => rfl
  · show 1 + (r.val - 1) = r.val; omega

theorem rows_bottom (z0 : S24x1x130.Idx → α) (mid : S24x128x130.Idx → α) (z1 : S24x1x130.Idx → α)
    (hc : Shape.Concatenates (([⟨S24x1x130, z0⟩, ⟨S24x128x130, mid⟩, ⟨S24x1x130, z1⟩] : List ((s : Shape) × (s.Idx → α))).map (·.1)) S24x130x130 1)
    (c : Fin 24) (r s : Fin 130) (hr : r.val = 129) :
    concatenate S24x130x130 1 [⟨S24x1x130, z0⟩, ⟨S24x128x130, mid⟩, ⟨S24x1x130, z1⟩] hc (ix3 c r s) = z1 (ix3 c (0 : Fin 1) s) := by
  refine concatenate_apply_piece (1 : Fin 3) _ hc (ix3 c r s) 2 (by show 2 < 3; omega) S24x1x130 z1 rfl rfl 129 ?_
    (ix3 c (0 : Fin 1) s) (fun a ha => ?_) ?_
  · rfl
  · match a with
    | ⟨0, _⟩ => rfl
    | ⟨1, _⟩ => exact absurd rfl ha
    | ⟨2, _⟩ => rfl
  · show 129 + 0 = r.val; omega

/-! ### A column left and right: `[24, 128, 1] ++ [24, 128, 128] ++ [24, 128, 1]` along the columns -/

theorem cols_left (z0 : S24x128x1.Idx → α) (mid : S24x128x128.Idx → α) (z1 : S24x128x1.Idx → α)
    (hc : Shape.Concatenates (([⟨S24x128x1, z0⟩, ⟨S24x128x128, mid⟩, ⟨S24x128x1, z1⟩] : List ((s : Shape) × (s.Idx → α))).map (·.1)) S24x128x130 2)
    (c : Fin 24) (r : Fin 128) (s : Fin 130) (hs : s.val = 0) :
    concatenate S24x128x130 2 [⟨S24x128x1, z0⟩, ⟨S24x128x128, mid⟩, ⟨S24x128x1, z1⟩] hc (ix3 c r s) = z0 (ix3 c r (0 : Fin 1)) := by
  refine concatenate_apply_piece (2 : Fin 3) _ hc (ix3 c r s) 0 (by show 0 < 3; omega) S24x128x1 z0 rfl rfl 0 ?_
    (ix3 c r (0 : Fin 1)) (fun a ha => ?_) ?_
  · rfl
  · match a with
    | ⟨0, _⟩ => rfl
    | ⟨1, _⟩ => rfl
    | ⟨2, _⟩ => exact absurd rfl ha
  · show 0 + 0 = s.val; omega

theorem cols_mid (z0 : S24x128x1.Idx → α) (mid : S24x128x128.Idx → α) (z1 : S24x128x1.Idx → α)
    (hc : Shape.Concatenates (([⟨S24x128x1, z0⟩, ⟨S24x128x128, mid⟩, ⟨S24x128x1, z1⟩] : List ((s : Shape) × (s.Idx → α))).map (·.1)) S24x128x130 2)
    (c : Fin 24) (r : Fin 128) (s : Fin 130) (hs : 1 ≤ s.val ∧ s.val ≤ 128) :
    concatenate S24x128x130 2 [⟨S24x128x1, z0⟩, ⟨S24x128x128, mid⟩, ⟨S24x128x1, z1⟩] hc (ix3 c r s) = mid (ix3 c r (⟨s.val - 1, by omega⟩ : Fin 128)) := by
  refine concatenate_apply_piece (2 : Fin 3) _ hc (ix3 c r s) 1 (by show 1 < 3; omega) S24x128x128 mid rfl rfl 1 ?_
    (ix3 c r (⟨s.val - 1, by omega⟩ : Fin 128)) (fun a ha => ?_) ?_
  · rfl
  · match a with
    | ⟨0, _⟩ => rfl
    | ⟨1, _⟩ => rfl
    | ⟨2, _⟩ => exact absurd rfl ha
  · show 1 + (s.val - 1) = s.val; omega

theorem cols_right (z0 : S24x128x1.Idx → α) (mid : S24x128x128.Idx → α) (z1 : S24x128x1.Idx → α)
    (hc : Shape.Concatenates (([⟨S24x128x1, z0⟩, ⟨S24x128x128, mid⟩, ⟨S24x128x1, z1⟩] : List ((s : Shape) × (s.Idx → α))).map (·.1)) S24x128x130 2)
    (c : Fin 24) (r : Fin 128) (s : Fin 130) (hs : s.val = 129) :
    concatenate S24x128x130 2 [⟨S24x128x1, z0⟩, ⟨S24x128x128, mid⟩, ⟨S24x128x1, z1⟩] hc (ix3 c r s) = z1 (ix3 c r (0 : Fin 1)) := by
  refine concatenate_apply_piece (2 : Fin 3) _ hc (ix3 c r s) 2 (by show 2 < 3; omega) S24x128x1 z1 rfl rfl 129 ?_
    (ix3 c r (0 : Fin 1)) (fun a ha => ?_) ?_
  · rfl
  · match a with
    | ⟨0, _⟩ => rfl
    | ⟨1, _⟩ => rfl
    | ⟨2, _⟩ => exact absurd rfl ha
  · show 129 + 0 = s.val; omega

end Layout

/-! ## The payloads at an index -/

/-- The f32 zero word is the extended real zero. -/
theorem zero_word : (Scalar.ofBits (F := Ideal) .f32 0x00000000#32 : Ideal .f32) = (0 : EReal) := by
  show FloatOps.ofBits (F := Ideal) .f32 0x00000000#32 = 0
  rw [Ideal.ofBits_def, Ideal.ofBits_zero_f32]

/-- The image block with its unit axis dropped. -/
theorem pay2_read (P0 : Vec Ideal S1x24x128x128 .f32) (c : Fin 24) (h w : Fin 128) :
    k0_pay2 (F := Ideal) P0 (ix3 c h w) = P0 (ix4 (0 : Fin 1) c h w) := by
  unfold k0_pay2
  exact shapeCast_1abc_abc_apply P0 _ c h w

/-- The stored value with its unit axis put back. -/
theorem pay1_read (v : FVec Ideal S24x128x128 .f32) (c : Fin 24) (h w : Fin 128) :
    k0_pay1 (F := Ideal) v (ix4 (0 : Fin 1) c h w) = v (ix3 c h w) := by
  unfold k0_pay1
  exact shapeCast_abc_1abc_apply v _ (0 : Fin 1) c h w

/-- The zero-bordered image block at row `r`, column `s` of channel `c`'s 130 × 130 plane. -/
def bordered (P0 : S1x24x128x128.Idx → EReal) (c : Fin 24) (r s : Nat) : EReal :=
  if h : (1 ≤ r ∧ r ≤ 128) ∧ (1 ≤ s ∧ s ≤ 128) then P0 (ix4 (0 : Fin 1) c ⟨r - 1, by omega⟩ ⟨s - 1, by omega⟩) else 0

/-- The body's bordered block IS the zero-bordered image block. -/
theorem bordered_read (P0 : Vec Ideal S1x24x128x128 .f32) (c : Fin 24) (r s : Fin 130) :
    k0_pay4 (F := Ideal) P0 (ix3 c r s) = bordered P0 c r.val s.val := by
  have hr := r.isLt
  have hs := s.isLt
  unfold k0_pay4 bordered
  try dsimp only
  by_cases hr1 : 1 ≤ r.val ∧ r.val ≤ 128
  · rw [rows_mid _ _ _ _ c r s hr1]
    by_cases hs1 : 1 ≤ s.val ∧ s.val ≤ 128
    · rw [dif_pos ⟨hr1, hs1⟩, cols_mid _ _ _ _ c _ s hs1]
      exact pay2_read P0 c _ _
    · rw [dif_neg (fun hh => hs1 hh.2)]
      by_cases hs0 : s.val = 0
      · rw [cols_left _ _ _ _ c _ s hs0]; exact zero_word
      · rw [cols_right _ _ _ _ c _ s (by omega)]; exact zero_word
  · rw [dif_neg (fun hh => hr1 hh.1)]
    by_cases hr0 : r.val = 0
    · rw [rows_top _ _ _ _ c r s hr0]; exact zero_word
    · rw [rows_bottom _ _ _ _ c r s (by omega)]; exact zero_word

/-- The gate at `(c, h, w)`: `σ` of the image entry times the channel's weight plus its bias. -/
theorem gate_read (P0 : Vec Ideal S1x24x128x128 .f32) (G B : Vec Ideal S24x1 .f32) (c : Fin 24) (h w : Fin 128) :
    k0_pay3 (F := Ideal) P0 G B (ix3 c h w)
      = Ideal.logistic (P0 (ix4 (0 : Fin 1) c h w) * G (ix2 c (0 : Fin 1)) + B (ix2 c (0 : Fin 1))) := by
  unfold k0_pay3
  try dsimp only
  simp only [Idealize.ShloMosaic.logistic, Idealize.ShloMosaic.addf, Idealize.ShloMosaic.mulf, pay2_read, column_read]
  rfl

/-- One of the nine terms: the bordered block `(di, dj)` away, plus the gate times the channel's coefficient. -/
def blockTap (P0 : S1x24x128x128.Idx → EReal) (G B Kn : S24x1.Idx → EReal) (c : Fin 24) (h w : Fin 128) (di dj : Nat) : EReal :=
  bordered P0 c (h.val + di) (w.val + dj)
    + Ideal.logistic (P0 (ix4 (0 : Fin 1) c h w) * G (ix2 c (0 : Fin 1)) + B (ix2 c (0 : Fin 1))) * Kn (ix2 c (0 : Fin 1))

/-- The running maximum after the first three terms. -/
theorem pay5_read (P0 : Vec Ideal S1x24x128x128 .f32) (G B K0 K1 K2 : Vec Ideal S24x1 .f32) (c : Fin 24) (h w : Fin 128) :
    k0_pay5 (F := Ideal) P0 G B K0 K1 K2 (ix3 c h w)
      = max (max (blockTap P0 G B K0 c h w 0 0) (blockTap P0 G B K1 c h w 0 1)) (blockTap P0 G B K2 c h w 0 2) := by
  unfold k0_pay5 blockTap
  try dsimp only
  simp only [Idealize.ShloMosaic.maximumf, Idealize.ShloMosaic.addf, Idealize.ShloMosaic.mulf, window_read, column_read,
    bordered_read, gate_read]
  rfl

/-- The fourth window. -/
theorem pay6_read (P0 : Vec Ideal S1x24x128x128 .f32) (c : Fin 24) (h w : Fin 128) :
    k0_pay6 (F := Ideal) P0 (ix3 c h w) = bordered P0 c (h.val + 1) (w.val + 0) := by
  unfold k0_pay6
  try dsimp only
  rw [window_read, bordered_read]

/-- The running maximum continued over the last six terms, for ANY gate `V12`, bordered block `V16`, maximum so far
    `V39` and fourth window `V40`. -/
theorem pay7_read (V12 : FVec Ideal S24x128x128 .f32) (V16 : FVec Ideal S24x130x130 .f32) (V39 V40 : FVec Ideal S24x128x128 .f32)
    (K3 K4 K5 K6 K7 K8 : Vec Ideal S24x1 .f32) (c : Fin 24) (h w : Fin 128) :
    k0_pay7 (F := Ideal) V12 V16 V39 V40 K3 K4 K5 K6 K7 K8 (ix3 c h w)
      = max (max (max (max (max (max (V39 (ix3 c h w))
          (V40 (ix3 c h w) + V12 (ix3 c h w) * K3 (ix2 c (0 : Fin 1))))
          (V16 (ix3 c (⟨h.val + 1, by omega⟩ : Fin 130) (⟨w.val + 1, by omega⟩ : Fin 130)) + V12 (ix3 c h w) * K4 (ix2 c (0 : Fin 1))))
          (V16 (ix3 c (⟨h.val + 1, by omega⟩ : Fin 130) (⟨w.val + 2, by omega⟩ : Fin 130)) + V12 (ix3 c h w) * K5 (ix2 c (0 : Fin 1))))
          (V16 (ix3 c (⟨h.val + 2, by omega⟩ : Fin 130) (⟨w.val + 0, by omega⟩ : Fin 130)) + V12 (ix3 c h w) * K6 (ix2 c (0 : Fin 1))))
          (V16 (ix3 c (⟨h.val + 2, by omega⟩ : Fin 130) (⟨w.val + 1, by omega⟩ : Fin 130)) + V12 (ix3 c h w) * K7 (ix2 c (0 : Fin 1))))
          (V16 (ix3 c (⟨h.val + 2, by omega⟩ : Fin 130) (⟨w.val + 2, by omega⟩ : Fin 130)) + V12 (ix3 c h w) * K8 (ix2 c (0 : Fin 1))) := by
  unfold k0_pay7
  try dsimp only
  simp only [Idealize.ShloMosaic.maximumf, Idealize.ShloMosaic.addf, Idealize.ShloMosaic.mulf, window_read, column_read]
  rfl

/-- THE STORED VALUE at `(0, c, h, w)` of the output block: the nested maximum of the nine terms, taken from the window
    at offset `(0, 0)` to the one at `(2, 2)` row by row. -/
theorem body_read (P0 : Vec Ideal S1x24x128x128 .f32) (G B K0 K1 K2 K3 K4 K5 K6 K7 K8 : Vec Ideal S24x1 .f32)
    (c : Fin 24) (h w : Fin 128) :
    k0_pay1 (F := Ideal) (k0_pay7 (k0_pay3 P0 G B) (k0_pay4 P0) (k0_pay5 P0 G B K0 K1 K2) (k0_pay6 P0) K3 K4 K5 K6 K7 K8)
        (ix4 (0 : Fin 1) c h w)
      = max (max (max (max (max (max (max (max (blockTap P0 G B K0 c h w 0 0) (blockTap P0 G B K1 c h w 0 1))
          (blockTap P0 G B K2 c h w 0 2)) (blockTap P0 G B K3 c h w 1 0)) (blockTap P0 G B K4 c h w 1 1))
          (blockTap P0 G B K5 c h w 1 2)) (blockTap P0 G B K6 c h w 2 0)) (blockTap P0 G B K7 c h w 2 1))
          (blockTap P0 G B K8 c h w 2 2) := by
  rw [pay1_read, pay7_read, pay5_read, pay6_read]
  simp only [bordered_read, gate_read]
  rfl

end Cert.KernelIdeal.Block

end
-- ==== Proof.KernelIsMaxPlus.lean ====
/-
  The kernel computes `maxPlus`: its result array ends holding, at every index, the maximum of the nine taps.

  The grid has 8 × 8 points; point `(i, j)` works on image `i` and on the 24 channels `24 j, …, 24 j + 23`: its image
  block is `x[i, 24 j + ·, ·, ·]`, its coefficient block rows `24 j + ·` of `k`, its two gate blocks rows `24 j + ·` of the
  gate vectors (which the host lays out as columns `[192, 1]` first). The body's value at `(0, c, h, w)` of the block is the
  nested maximum of the nine terms over THE BLOCKS (`Block.body_read`); each term is the array's tap at channel
  `24 j + c`, because a window of the bordered block is a window of the bordered image plane (the border is added per
  plane, and planes are not mixed) and the gate and the coefficients are per channel (`block_eq`). The 64 blocks written
  back tile the result array (`cover`), so the array IS `maxPlus` of the arguments (`final`, `run`).
-/
import proofs.«158425_j28527172780064_2_alg».proof.Proof.Gen.KernelIdeal.Frame
import proofs.«158425_j28527172780064_2_alg».proof.Proof.KernelTaps
import proofs.«158425_j28527172780064_2_alg».proof.Proof.MaxPlus
import Idealize.ShloMosaic.Lib.Pipeline.Value
import Idealize.ShloMosaic.Lib.StableHlo.Run
import Idealize.ShloMosaic.Lib.Tactic

set_option maxRecDepth 16384

noncomputable section

namespace Cert.KernelIdeal.KernelValue

open Cert.KernelIdeal Cert.KernelIdeal.Gen Cert.KernelIdeal.Block Cert.MaxPlus
open Idealize.ShloMosaic Idealize.ShloMosaic.TcCoe Idealize.ShloMosaic.ValueIdx Idealize.SL.Sem
open Idealize.ShloMosaic.Pipeline (Dat)

/-- A `[192, 1]` column array read as the vector of its entries. -/
def colOf (X : S192x1.Idx → EReal) : Chan.Idx → EReal := fun i => X (ix2 (i 0) (0 : Fin 1))

/-- The result as a function of the four arrays the region finds: the image, the coefficients, the two gate columns. -/
def foundOf (A0 : S8x192x128x128.Idx → EReal) (A1 : S192x9.Idx → EReal) (A2 A3 : S192x1.Idx → EReal) :
    S8x192x128x128.Idx → EReal :=
  maxPlus A0 A1 (colOf A2) (colOf A3)

/-- The array's channel under channel `c` of channel block `cj`. -/
abbrev chan (cj : Fin 8) (c : Fin 24) : Fin 192 := ⟨24 * cj.val + c.val, by have := cj.isLt; have := c.isLt; omega⟩

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## One block -/

section OneBlock
variable (X0 : S8x192x128x128.Idx → EReal) (X1 : S192x9.Idx → EReal) (X2 X3 : S192x1.Idx → EReal)
  (P0 : Vec Ideal S1x24x128x128 .f32) (P1 : Vec Ideal S24x9 .f32) (P2 P3 : Vec Ideal S24x1 .f32) (bi cj : Fin 8)

/-- The bordered image block is the bordered image plane: the border is put around each plane by itself. -/
theorem bordered_eq (h0 : ∀ (c : Fin 24) (h w : Fin 128), P0 (ix4 (0 : Fin 1) c h w) = X0 (ix4 bi (chan cj c) h w))
    (c : Fin 24) (r s : Nat) : bordered P0 c r s = padded X0 bi (chan cj c) r s := by
  unfold bordered padded
  by_cases hin : (1 ≤ r ∧ r ≤ 128) ∧ (1 ≤ s ∧ s ≤ 128)
  · rw [dif_pos hin, dif_pos hin]; exact h0 c _ _
  · rw [dif_neg hin, dif_neg hin]

/-- One term over the blocks is the array's tap at the channel under it. -/
theorem tap_eq (h0 : ∀ (c : Fin 24) (h w : Fin 128), P0 (ix4 (0 : Fin 1) c h w) = X0 (ix4 bi (chan cj c) h w))
    (h2 : ∀ c : Fin 24, P2 (ix2 c (0 : Fin 1)) = X2 (ix2 (chan cj c) (0 : Fin 1)))
    (h3 : ∀ c : Fin 24, P3 (ix2 c (0 : Fin 1)) = X3 (ix2 (chan cj c) (0 : Fin 1)))
    (Kn : S24x1.Idx → EReal) (n : Fin 9) (c : Fin 24) (h w : Fin 128) (di dj : Nat) (hdi : di = n.val / 3) (hdj : dj = n.val % 3)
    (hK : Kn (ix2 c (0 : Fin 1)) = X1 (ix2 (chan cj c) n)) :
    blockTap P0 P2 P3 Kn c h w di dj = tap X0 X1 (colOf X2) (colOf X3) (ix4 bi (chan cj c) h w) n := by
  subst hdi hdj
  unfold blockTap tap gate colOf
  rw [bordered_eq X0 P0 bi cj h0, h0, h2, h3, hK]

/-- Column `k` of the coefficient block, as the body loads it. -/
theorem coef_col (k : Nat) (hk : k < 9) (inb : ∀ a, (![0, k] : Fin 2 → Nat) a + S24x1.size a ≤ S24x9.size a) (c : Fin 24) :
    View.ld P1 (Rect.unit (s := S24x9) ![0, k] S24x1.size inb) (ix2 c (0 : Fin 1)) = P1 (ix2 c (⟨k, hk⟩ : Fin 9)) := by
  show P1 _ = P1 _
  congr 1
  funext a; apply Fin.ext
  match a with
  | ⟨0, _⟩ => show 0 + 1 * c.val = c.val; omega
  | ⟨1, _⟩ => show k + 1 * 0 = k; omega

/-- WHAT THE BODY LEAVES in the output block, when its four input blocks are image `bi`'s channels `24 cj + ·`: that
    block of `maxPlus`. -/
theorem block_eq (h0 : ∀ (c : Fin 24) (h w : Fin 128), P0 (ix4 (0 : Fin 1) c h w) = X0 (ix4 bi (chan cj c) h w))
    (h1 : ∀ (c : Fin 24) (n : Nat) (hn : n < 9), P1 (ix2 c (⟨n, hn⟩ : Fin 9)) = X1 (ix2 (chan cj c) (⟨n, hn⟩ : Fin 9)))
    (h2 : ∀ c : Fin 24, P2 (ix2 c (0 : Fin 1)) = X2 (ix2 (chan cj c) (0 : Fin 1)))
    (h3 : ∀ c : Fin 24, P3 (ix2 c (0 : Fin 1)) = X3 (ix2 (chan cj c) (0 : Fin 1)))
    (c : Fin 24) (h w : Fin 128) :
    out0_4 P0 P1 P2 P3 (ix4 (0 : Fin 1) c h w) = foundOf X0 X1 X2 X3 (ix4 bi (chan cj c) h w) := by
  unfold out0_4
  rw [View.canon_unit_zero hz4]
  simp only [View.ld_unit_zero (S := S1x24x128x128) hz4, View.ld_unit_zero (S := S24x1) hz2]
  rw [body_read]
  unfold foundOf maxPlus chain
  exact (congrArg₂ max (congrArg₂ max (congrArg₂ max (congrArg₂ max (congrArg₂ max (congrArg₂ max (congrArg₂ max (congrArg₂ max (tap_eq X0 X1 X2 X3 P0 P2 P3 bi cj h0 h2 h3 _ (⟨0, by omega⟩ : Fin 9) c h w 0 0 rfl rfl ((coef_col P1 0 (by omega) _ c).trans (h1 c 0 (by omega))))
      (tap_eq X0 X1 X2 X3 P0 P2 P3 bi cj h0 h2 h3 _ (⟨1, by omega⟩ : Fin 9) c h w 0 1 rfl rfl ((coef_col P1 1 (by omega) _ c).trans (h1 c 1 (by omega)))))
      (tap_eq X0 X1 X2 X3 P0 P2 P3 bi cj h0 h2 h3 _ (⟨2, by omega⟩ : Fin 9) c h w 0 2 rfl rfl ((coef_col P1 2 (by omega) _ c).trans (h1 c 2 (by omega)))))
      (tap_eq X0 X1 X2 X3 P0 P2 P3 bi cj h0 h2 h3 _ (⟨3, by omega⟩ : Fin 9) c h w 1 0 rfl rfl ((coef_col P1 3 (by omega) _ c).trans (h1 c 3 (by omega)))))
      (tap_eq X0 X1 X2 X3 P0 P2 P3 bi cj h0 h2 h3 _ (⟨4, by omega⟩ : Fin 9) c h w 1 1 rfl rfl ((coef_col P1 4 (by omega) _ c).trans (h1 c 4 (by omega)))))
      (tap_eq X0 X1 X2 X3 P0 P2 P3 bi cj h0 h2 h3 _ (⟨5, by omega⟩ : Fin 9) c h w 1 2 rfl rfl ((coef_col P1 5 (by omega) _ c).trans (h1 c 5 (by omega)))))
      (tap_eq X0 X1 X2 X3 P0 P2 P3 bi cj h0 h2 h3 _ (⟨6, by omega⟩ : Fin 9) c h w 2 0 rfl rfl ((coef_col P1 6 (by omega) _ c).trans (h1 c 6 (by omega)))))
      (tap_eq X0 X1 X2 X3 P0 P2 P3 bi cj h0 h2 h3 _ (⟨7, by omega⟩ : Fin 9) c h w 2 1 rfl rfl ((coef_col P1 7 (by omega) _ c).trans (h1 c 7 (by omega)))))
      (tap_eq X0 X1 X2 X3 P0 P2 P3 bi cj h0 h2 h3 _ (⟨8, by omega⟩ : Fin 9) c h w 2 2 rfl rfl ((coef_col P1 8 (by omega) _ c).trans (h1 c 8 (by omega)))))

end OneBlock

/-! ## The blocks of the arrays -/

variable (m : (ℓ : Loc nD τ sig) → Buf (Elt Ideal) ℓ) (ρ : Dev nD → PrngReg)

/-- The result over the arrays as the region finds them. -/
def found (c : Dev nD) : S8x192x128x128.Idx → EReal :=
  foundOf (V m c main_arg0) (V m c main_arg1) (V m c main_v0) (V m c main_v1)

/-- The printed index maps over the 64 points: the image and the result move together, with the image index on the
    first grid axis and the channel block on the second; the coefficients and the gate columns follow the channel block. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 2) = win0_4.index t (1 : Fin 4) ∧ win0_1.index t (1 : Fin 2) = 0
    ∧ win0_2.index t (0 : Fin 2) = win0_4.index t (1 : Fin 4) ∧ win0_2.index t (1 : Fin 2) = 0
    ∧ win0_3.index t (0 : Fin 2) = win0_4.index t (1 : Fin 4) ∧ win0_3.index t (1 : Fin 2) = 0
    ∧ win0_4.index t (0 : Fin 4) < 8 ∧ win0_4.index t (1 : Fin 4) < 8
    ∧ win0_4.index t (2 : Fin 4) = 0 ∧ win0_4.index t (3 : Fin 4) = 0 :=
  (by decide +kernel : ∀ t : Fin grid0.N, _)

/-- Every (image, channel block) pair is some point's. -/
theorem idx_onto : ∀ (q0 q1 : Fin 8), ∃ t : Fin cfg0.N, win0_4.index t = ![q0.val, q1.val, 0, 0] :=
  (by decide +kernel : ∀ (q0 q1 : Fin 8), ∃ t : Fin grid0.N, win0_4.index t = ![q0.val, q1.val, 0, 0])

/-- Point `t`'s image block is image `bi`, channels `24 cj + ·`. -/
theorem image_block (c : Dev nD) (t : Fin cfg0.N) (bi cj : Fin 8) (hb : win0_4.index t (0 : Fin 4) = bi.val)
    (hc : win0_4.index t (1 : Fin 4) = cj.val) (cc : Fin 24) (h w : Fin 128) :
    (iblk m c 0 t : Vec Ideal S1x24x128x128 .f32) (ix4 (0 : Fin 1) cc h w)
      = (V m c main_arg0 : S8x192x128x128.Idx → EReal) (ix4 bi (chan cj cc) h w) := by
  obtain ⟨e0, e1, e2, e3, -⟩ := idx_facts t
  show (V m c main_arg0 : S8x192x128x128.Idx → EReal) (((cfg0.win 0).blk t).view.emb (ix4 (0 : Fin 1) cc h w)) = _
  refine congrArg _ (funext fun a => Fin.ext ?_)
  match a with
  | ⟨0, _⟩ => show win0_0.index t (0 : Fin 4) * 1 + 1 * 0 = bi.val; omega
  | ⟨1, _⟩ => show win0_0.index t (1 : Fin 4) * 24 + 1 * cc.val = 24 * cj.val + cc.val; omega
  | ⟨2, _⟩ => show win0_0.index t (2 : Fin 4) * 128 + 1 * h.val = h.val; omega
  | ⟨3, _⟩ => show win0_0.index t (3 : Fin 4) * 128 + 1 * w.val = w.val; omega

/-- Its coefficient block is rows `24 cj + ·` of the coefficients. -/
theorem coef_block (c : Dev nD) (t : Fin cfg0.N) (cj : Fin 8) (hc : win0_4.index t (1 : Fin 4) = cj.val)
    (cc : Fin 24) (n : Nat) (hn : n < 9) :
    (iblk m c 1 t : Vec Ideal S24x9 .f32) (ix2 cc (⟨n, hn⟩ : Fin 9))
      = (V m c main_arg1 : S192x9.Idx → EReal) (ix2 (chan cj cc) (⟨n, hn⟩ : Fin 9)) := by
  obtain ⟨-, -, -, -, e0, e1, -⟩ := idx_facts t
  show (V m c main_arg1 : S192x9.Idx → EReal) (((cfg0.win 1).blk t).view.emb (ix2 cc (⟨n, hn⟩ : Fin 9))) = _
  refine congrArg _ (funext fun a => Fin.ext ?_)
  match a with
  | ⟨0, _⟩ => show win0_1.index t (0 : Fin 2) * 24 + 1 * cc.val = 24 * cj.val + cc.val; omega
  | ⟨1, _⟩ => show win0_1.index t (1 : Fin 2) * 9 + 1 * n = n; omega

/-- Its gate-weight block is rows `24 cj + ·` of the weight column. -/
theorem weight_block (c : Dev nD) (t : Fin cfg0.N) (cj : Fin 8) (hc : win0_4.index t (1 : Fin 4) = cj.val) (cc : Fin 24) :
    (iblk m c 2 t : Vec Ideal S24x1 .f32) (ix2 cc (0 : Fin 1))
      = (V m c main_v0 : S192x1.Idx → EReal) (ix2 (chan cj cc) (0 : Fin 1)) := by
  obtain ⟨-, -, -, -, -, -, e0, e1, -⟩ := idx_facts t
  show (V m c main_v0 : S192x1.Idx → EReal) (((cfg0.win 2).blk t).view.emb (ix2 cc (0 : Fin 1))) = _
  refine congrArg _ (funext fun a => Fin.ext ?_)
  match a with
  | ⟨0, _⟩ => show win0_2.index t (0 : Fin 2) * 24 + 1 * cc.val = 24 * cj.val + cc.val; omega
  | ⟨1, _⟩ => show win0_2.index t (1 : Fin 2) * 1 + 1 * 0 = 0; omega

/-- Its gate-bias block is rows `24 cj + ·` of the bias column. -/
theorem bias_block (c : Dev nD) (t : Fin cfg0.N) (cj : Fin 8) (hc : win0_4.index t (1 : Fin 4) = cj.val) (cc : Fin 24) :
    (iblk m c 3 t : Vec Ideal S24x1 .f32) (ix2 cc (0 : Fin 1))
      = (V m c main_v1 : S192x1.Idx → EReal) (ix2 (chan cj cc) (0 : Fin 1)) := by
  obtain ⟨-, -, -, -, -, -, -, -, e0, e1, -⟩ := idx_facts t
  show (V m c main_v1 : S192x1.Idx → EReal) (((cfg0.win 3).blk t).view.emb (ix2 cc (0 : Fin 1))) = _
  refine congrArg _ (funext fun a => Fin.ext ?_)
  match a with
  | ⟨0, _⟩ => show win0_3.index t (0 : Fin 2) * 24 + 1 * cc.val = 24 * cj.val + cc.val; omega
  | ⟨1, _⟩ => show win0_3.index t (1 : Fin 2) * 1 + 1 * 0 = 0; omega

/-! ## What a point writes back, and the whole array -/

/-- The body's result at point `t`, at an index of the block, is `found` at the array index under it. -/
theorem flushed_at (c : Dev nD) (t : Fin cfg0.N) (y : S1x24x128x128.Idx) :
    out0_4 (iblk m c 0 t) (iblk m c 1 t) (iblk m c 2 t) (iblk m c 3 t) y = found m c (((cfg0.win 4).blk t).view.emb y) := by
  obtain ⟨-, -, -, -, -, -, -, -, -, -, hb, hc, e2, e3⟩ := idx_facts t
  obtain ⟨u, cc, h, w, rfl⟩ : ∃ (u : Fin 1) (cc : Fin 24) (h w : Fin 128), y = ix4 u cc h w :=
    ⟨y 0, y 1, y 2, y 3, eq_ix4 y⟩
  obtain rfl : u = 0 := Subsingleton.elim _ _
  refine (block_eq (V m c main_arg0) (V m c main_arg1) (V m c main_v0) (V m c main_v1)
    (iblk m c 0 t) (iblk m c 1 t) (iblk m c 2 t) (iblk m c 3 t) (⟨win0_4.index t (0 : Fin 4), hb⟩ : Fin 8)
    (⟨win0_4.index t (1 : Fin 4), hc⟩ : Fin 8)
    (fun cc h w => image_block m c t _ _ rfl rfl cc h w)
    (fun cc n hn => coef_block m c t _ rfl cc n hn)
    (fun cc => weight_block m c t _ rfl cc)
    (fun cc => bias_block m c t _ rfl cc) cc h w).trans ?_
  unfold found
  refine congrArg _ (funext fun a => Fin.ext ?_)
  match a with
  | ⟨0, _⟩ => show win0_4.index t (0 : Fin 4) = win0_4.index t (0 : Fin 4) * 1 + 1 * 0; omega
  | ⟨1, _⟩ => show 24 * win0_4.index t (1 : Fin 4) + cc.val = win0_4.index t (1 : Fin 4) * 24 + 1 * cc.val; omega
  | ⟨2, _⟩ => show h.val = win0_4.index t (2 : Fin 4) * 128 + 1 * h.val; omega
  | ⟨3, _⟩ => show w.val = win0_4.index t (3 : Fin 4) * 128 + 1 * w.val; omega

/-- WHAT POINT `t` WRITES BACK is block `t` of `found`. -/
theorem flushed_eq (c : Dev nD) (t : Fin cfg0.N) :
    (dats m 0 c).flushed 4 t = ((cfg0.win 4).blk t).view.read (Elt Ideal) (found m c) := by
  show (cfg0.win 4).cut (grid0.coords t) ((dats m 0 c).after 4 t) = _
  rw [after0_4]
  funext y
  exact flushed_at m c t y

/-- An index of the result array is in point `t`'s block iff each coordinate is in the block's range on its axis. -/
theorem mem_blk (t : Fin cfg0.N) (i : S8x192x128x128.Idx) :
    i ∈ ((cfg0.win 4).blk t).view.set ↔ ∀ a : Fin 4, win0_4.index t a * S1x24x128x128.size a ≤ (i a).val
      ∧ (i a).val < win0_4.index t a * S1x24x128x128.size a + S1x24x128x128.size a := by
  show i ∈ ((View.whole main_v2).slice (win0_4.rect t)).set ↔ _
  rw [View.set_slice_whole, Rect.mem_set_unit]
  exact Iff.rfl

/-- The 64 blocks cover the result array: index `(b, C, h, w)` is in the block of image `b`, channel block `C / 24`. -/
theorem cover (i : S8x192x128x128.Idx) :
    ∃ t : Fin cfg0.N, (cfg0.win 4).flush t = true ∧ i ∈ ((cfg0.win 4).blk t).view.set := by
  have h0 : (i 0).val < 8 := (i 0).isLt
  have h1 : (i 1).val < 192 := (i 1).isLt
  have h2 : (i 2).val < 128 := (i 2).isLt
  have h3 : (i 3).val < 128 := (i 3).isLt
  obtain ⟨t, ht⟩ := idx_onto ⟨(i 0).val, h0⟩ ⟨(i 1).val / 24, by omega⟩
  have q0 : win0_4.index t (0 : Fin 4) = (i 0).val := congrFun ht 0
  have q1 : win0_4.index t (1 : Fin 4) = (i 1).val / 24 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 24 ≤ (i 1).val ∧ (i 1).val < win0_4.index t (1 : Fin 4) * 24 + 24; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE RESULT ARRAY after the run is `found`. -/
theorem final (c : Dev nD) : (dats m 0 c).arrAt 4 cfg0.N = found m c :=
  (dats m 0 c).arrAt_eq_of_cover 4 (found m c) (fun t _ => flushed_eq m c t) cover

/-! ## The gate vectors through the host's reshape -/

/-- The weight column the region finds is the weight vector, entry by entry. -/
theorem weight_col (c : Dev nD) :
    colOf (V m c main_v0) = (m ((c : Thread nD τ).loc main_arg2) : S192.Idx → EReal) := by
  have e : (V m c main_v0 : S192x1.Idx → EReal)
      = shapeCast S192x1 (m ((c : Thread nD τ).loc main_arg2) : S192.Idx → EReal) shapeCasts_S192_S192x1 := by
    dsimp only [Gen.V, Gen.hostOps0]; after_results; rfl
  funext i
  obtain ⟨C, rfl⟩ : ∃ C : Fin 192, i = ix1 C := ⟨i 0, eq_ix1 i⟩
  unfold colOf
  rw [e]
  exact shapeCast_apply _ _ (ix2 C (0 : Fin 1)) (ix1 C) (by
    rw [Shape.rowMajor_val_one, Shape.rowMajor_val_two]; show C.val = C.val * 1 + 0; omega)

/-- The bias column the region finds is the bias vector, entry by entry. -/
theorem bias_col (c : Dev nD) :
    colOf (V m c main_v1) = (m ((c : Thread nD τ).loc main_arg3) : S192.Idx → EReal) := by
  have e : (V m c main_v1 : S192x1.Idx → EReal)
      = shapeCast S192x1 (m ((c : Thread nD τ).loc main_arg3) : S192.Idx → EReal) shapeCasts_S192_S192x1 := by
    dsimp only [Gen.V, Gen.hostOps0]; after_results; rfl
  funext i
  obtain ⟨C, rfl⟩ : ∃ C : Fin 192, i = ix1 C := ⟨i 0, eq_ix1 i⟩
  unfold colOf
  rw [e]
  exact shapeCast_apply _ _ (ix2 C (0 : Fin 1)) (ix1 C) (by
    rw [Shape.rowMajor_val_one, Shape.rowMajor_val_two]; show C.val = C.val * 1 + 0; omega)

/-- So `found` is `maxPlus` of the four arguments as launched. -/
theorem found_eq (c : Dev nD) :
    found m c = maxPlus (m ((c : Thread nD τ).loc main_arg0)) (m ((c : Thread nD τ).loc main_arg1))
      (m ((c : Thread nD τ).loc main_arg2)) (m ((c : Thread nD τ).loc main_arg3)) := by
  unfold found foundOf
  rw [weight_col m c, bias_col m c, V_main_arg0 m c, V_main_arg1 m c]

/-! ## The run, read -/

/-- Every weakly fair execution of the kernel program terminates with the result array at `maxPlus` of the arguments
    and the arguments unchanged. -/
theorem run : θ_run defs (onTc (τ := τ) (main (F := Ideal))) ⟨m, fun _ => 0, ρ⟩ fun r => ∀ c : Dev nD,
      r.2.mem ((c : Thread nD τ).loc main_v2) = maxPlus (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans ((final m c).trans (found_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KernelValue

end
-- ==== Proof.NineWindows.lean ====
/-
  A stack of nine arrays of shape `[8, 192, 1, 128, 128]` joined along the middle axis into `[8, 192, 9, 128, 128]`,
  read at an index: entry `n` on the joined axis is the `n`-th array, read at the same other coordinates.
  (One statement per position `n = 0, …, 8`: the position that holds coordinate `n` is found by running through the
  pieces' extents, all equal to one.)
-/
import Idealize.ShloMosaic.Lib.Pipeline.Value
import Idealize.ShloMosaic.Lib.ValueIdx

noncomputable section

namespace Cert.NineWindows

open Idealize.ShloMosaic Idealize.ShloMosaic.ValueIdx

variable {α : Type}

/-- One window with a unit axis in the middle, and the stack of nine. -/
abbrev One : Shape := ⟨5, ![8, 192, 1, 128, 128]⟩
abbrev Nine : Shape := ⟨5, ![8, 192, 9, 128, 128]⟩

/-- Entry 0 of the stack is the array in position 0. -/
theorem stack_0 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 0) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y0 (ix5 b c 0 h w) := by
  refine concatenate_apply_piece (2 : Fin 5) _ hc (ix5 b c n h w) 0 (by show 0 < 9; omega) One y0 rfl rfl 0 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 0 + 0 = n.val; omega

/-- Entry 1 of the stack is the array in position 1. -/
theorem stack_1 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 1) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y1 (ix5 b c 0 h w) := by
  refine concatenate_apply_piece (2 : Fin 5) _ hc (ix5 b c n h w) 1 (by show 1 < 9; omega) One y1 rfl rfl 1 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 1 + 0 = n.val; omega

/-- Entry 2 of the stack is the array in position 2. -/
theorem stack_2 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 2) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y2 (ix5 b c 0 h w) := by
  refine concatenate_apply_piece (2 : Fin 5) _ hc (ix5 b c n h w) 2 (by show 2 < 9; omega) One y2 rfl rfl 2 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 2 + 0 = n.val; omega

/-- Entry 3 of the stack is the array in position 3. -/
theorem stack_3 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 3) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y3 (ix5 b c 0 h w) := by
  refine concatenate_apply_piece (2 : Fin 5) _ hc (ix5 b c n h w) 3 (by show 3 < 9; omega) One y3 rfl rfl 3 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 3 + 0 = n.val; omega

/-- Entry 4 of the stack is the array in position 4. -/
theorem stack_4 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 4) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y4 (ix5 b c 0 h w) := by
  refine concatenate_apply_piece (2 : Fin 5) _ hc (ix5 b c n h w) 4 (by show 4 < 9; omega) One y4 rfl rfl 4 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 4 + 0 = n.val; omega

/-- Entry 5 of the stack is the array in position 5. -/
theorem stack_5 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 5) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y5 (ix5 b c 0 h w) := by
  refine concatenate_apply_piece (2 : Fin 5) _ hc (ix5 b c n h w) 5 (by show 5 < 9; omega) One y5 rfl rfl 5 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 5 + 0 = n.val; omega

/-- Entry 6 of the stack is the array in position 6. -/
theorem stack_6 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 6) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y6 (ix5 b c 0 h w) := by
  refine concatenate_apply_piece (2 : Fin 5) _ hc (ix5 b c n h w) 6 (by show 6 < 9; omega) One y6 rfl rfl 6 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 6 + 0 = n.val; omega

/-- Entry 7 of the stack is the array in position 7. -/
theorem stack_7 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 7) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y7 (ix5 b c 0 h w) := by
  refine concatenate_apply_piece (2 : Fin 5) _ hc (ix5 b c n h w) 7 (by show 7 < 9; omega) One y7 rfl rfl 7 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 7 + 0 = n.val; omega

/-- Entry 8 of the stack is the array in position 8. -/
theorem stack_8 (y0 y1 y2 y3 y4 y5 y6 y7 y8 : One.Idx → α)
    (hc : Shape.Concatenates (([⟨One, y0⟩, ⟨One, y1⟩, ⟨One, y2⟩, ⟨One, y3⟩, ⟨One, y4⟩, ⟨One, y5⟩, ⟨One, y6⟩, ⟨One, y7⟩, ⟨One, y8⟩] : List ((s : Shape) × (s.Idx → α))).map (·.1)) Nine 2)
    (b : Fin 8) (c : Fin 192) (n : Fin 9) (hn : n.val = 8) (h w : Fin 128) :
    concatenate Nine 2 [⟨One, y0⟩, ⟨One, y1⟩, ⟨One, y2⟩, ⟨One, y3⟩, ⟨One, y4⟩, ⟨One, y5⟩, ⟨One, y6⟩, ⟨One, y7⟩, ⟨One, y8⟩] hc (ix5 b c n h w) = y8 (ix5 b c 0 h w) := by
  refine concatenate_apply_piece (2 : Fin 5) _ hc (ix5 b c n h w) 8 (by show 8 < 9; omega) One y8 rfl rfl 8 ?_
    (ix5 b c 0 h w) (fun a ha => ?_) ?_
  · rfl
  · match a with
    | ⟨0, _⟩ => rfl
    | ⟨1, _⟩ => rfl
    | ⟨2, _⟩ => exact absurd rfl ha
    | ⟨3, _⟩ => rfl
    | ⟨4, _⟩ => rfl
  · show 8 + 0 = n.val; omega

end Cert.NineWindows

end
-- ==== Proof.RefIsMaxPlus.lean ====
/-
  The reference computes `maxPlus`: at every index of the image, the maximum over the nine taps of the zero-bordered
  image's shifted entry plus the gate times the channel's tap coefficient.

  The reference builds the bordered image with one `pad` (a border of width one on the last two axes, padding value
  the integer 0 converted to a float), takes its nine 128 × 128 shifted windows as slices, stacks them along a new axis of
  length nine, adds gate × coefficient (both broadcast to the stacked shape) and reduces that axis with `max` from `−∞`.
  Read at an index this is: a `pad` inside its operand is the operand, outside it the padding value (`padded_read`);
  entry `n` of the stack is window `n` (`stacked_read`); the gate is `1 / (1 + e^(−z))`, which is what the extended reals'
  logistic function is by definition (`scored_read`); and a `max`-fold from `−∞` over nine numbers is their maximum
  (`MaxPlus.fold_max_nine`).
-/
import proofs.«158425_j28527172780064_2_alg».proof.Proof.Gen.ReferenceIdeal.Read
import proofs.«158425_j28527172780064_2_alg».proof.Proof.MaxPlus
import proofs.«158425_j28527172780064_2_alg».proof.Proof.NineWindows
import Idealize.ShloMosaic.Lib.KernelVsHost
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.MaxPlus
open Idealize.ShloMosaic Idealize.ShloMosaic.ValueIdx

/-- The padding value, the integer zero converted, is the extended real zero. -/
theorem pad_value : val_main_call0_v0 (F := Ideal) (Shape.Idx.first h_S_) = 0 := by
  rw [val_main_call0_v0_apply, val_main_c_apply]
  show (((0#32 : BitVec 32).toInt : ℝ) : EReal) = 0
  simp

/-- The reference's padded image at row `r`, column `s` of plane `(b, c)` is the zero-bordered image there. -/
theorem padded_read (x0 : (⟨S8x192x128x128, .f32⟩ : BufTy).Contents (Elt Ideal)) (b : Fin 8) (c : Fin 192) (r s : Fin 130) :
    val_main_v0 (F := Ideal) x0 (ix4 b c r s) = padded x0 b c r.val s.val := by
  unfold val_main_v0 padded
  by_cases hin : (1 ≤ r.val ∧ r.val ≤ 128) ∧ (1 ≤ s.val ∧ s.val ≤ 128)
  · rw [dif_pos hin]
    refine pad_apply_of_inside _ _ _ x0 _ _ _ (ix4 b c r s) (ix4 b c ⟨r.val - 1, by omega⟩ ⟨s.val - 1, by omega⟩) (fun a => ?_)
    match a with
    | ⟨0, _⟩ => show b.val = 0 + b.val * (0 + 1); omega
    | ⟨1, _⟩ => show c.val = 0 + c.val * (0 + 1); omega
    | ⟨2, _⟩ => show r.val = 1 + (r.val - 1) * (0 + 1); omega
    | ⟨3, _⟩ => show s.val = 1 + (s.val - 1) * (0 + 1); omega
  · rw [dif_neg hin]
    by_cases hr : 1 ≤ r.val ∧ r.val ≤ 128
    · have hs : ¬(1 ≤ s.val ∧ s.val ≤ 128) := fun hs => hin ⟨hr, hs⟩
      rw [pad_apply_of_not_inside _ _ _ x0 _ _ _ (ix4 b c r s) (3 : Fin 4) (by
        show ¬(1 ≤ s.val ∧ (s.val - 1) % (0 + 1) = 0 ∧ (s.val - 1) / (0 + 1) < 128); omega)]
      exact pad_value
    · rw [pad_apply_of_not_inside _ _ _ x0 _ _ _ (ix4 b c r s) (2 : Fin 4) (by
        show ¬(1 ≤ r.val ∧ (r.val - 1) % (0 + 1) = 0 ∧ (r.val - 1) / (0 + 1) < 128); omega)]
      exact pad_value

/-- Entry `n` of the stack of nine windows, at `(h, w)`, is the bordered image `n / 3` rows down and `n % 3` columns
    to the right of `(h, w)`. -/
theorem stacked_read (x0 : (⟨S8x192x128x128, .f32⟩ : BufTy).Contents (Elt Ideal)) (b : Fin 8) (c : Fin 192) (n : Fin 9)
    (h w : Fin 128) :
    val_main_v19 (F := Ideal) x0 (ix5 b c n h w) = padded x0 b c (h.val + n.val / 3) (w.val + n.val % 3) := by
  unfold val_main_v19
  have hh := h.isLt
  have hw := w.isLt
  match n with
  | ⟨0, hK⟩ =>
    refine Eq.trans (Cert.NineWindows.stack_0 _ _ _ _ _ _ _ _ _ _ b c ⟨0, hK⟩ rfl h w) ?_
    rw [val_main_v10_apply, val_main_v1_apply]
    refine Eq.trans (congrArg _ (?_ : idx_main_v1 (idx_main_v10 (ix5 b c 0 h w))
      = ix4 b c ⟨h.val + 0 / 3, by omega⟩ ⟨w.val + 0 % 3, by omega⟩)) (padded_read x0 b c _ _)
    funext a; apply Fin.ext
    match a with
    | ⟨0, _⟩ => rfl
    | ⟨1, _⟩ => rfl
    | ⟨2, _⟩ => show h.val = h.val + 0 / 3; omega
    | ⟨3, _⟩ => show w.val = w.val + 0 % 3; omega
  | ⟨1, hK⟩ =>
    refine Eq.trans (Cert.NineWindows.stack_1 _ _ _ _ _ _ _ _ _ _ b c ⟨1, hK⟩ rfl h w) ?_
    rw [val_main_v11_apply, val_main_v2_apply]
    refine Eq.trans (congrArg _ (?_ : idx_main_v2 (idx_main_v11 (ix5 b c 0 h w))
      = ix4 b c ⟨h.val + 1 / 3, by omega⟩ ⟨w.val + 1 % 3, by omega⟩)) (padded_read x0 b c _ _)
    funext a; apply Fin.ext
    match a with
    | ⟨0, _⟩ => rfl
    | ⟨1, _⟩ => rfl
    | ⟨2, _⟩ => show h.val = h.val + 1 / 3; omega
    | ⟨3, _⟩ => show 1 + w.val = w.val + 1 % 3; omega
  | ⟨2, hK⟩ =>
    refine Eq.trans (Cert.NineWindows.stack_2 _ _ _ _ _ _ _ _ _ _ b c ⟨2, hK⟩ rfl h w) ?_
    rw [val_main_v12_apply, val_main_v3_apply]
    refine Eq.trans (congrArg _ (?_ : idx_main_v3 (idx_main_v12 (ix5 b c 0 h w))
      = ix4 b c ⟨h.val + 2 / 3, by omega⟩ ⟨w.val + 2 % 3, by omega⟩)) (padded_read x0 b c _ _)
    funext a; apply Fin.ext
    match a with
    | ⟨0, _⟩ => rfl
    | ⟨1, _⟩ => rfl
    | ⟨2, _⟩ => show h.val = h.val + 2 / 3; omega
    | ⟨3, _⟩ => show 2 + w.val = w.val + 2 % 3; omega
  | ⟨3, hK⟩ =>
    refine Eq.trans (Cert.NineWindows.stack_3 _ _ _ _ _ _ _ _ _ _ b c ⟨3, hK⟩ rfl h w) ?_
    rw [val_main_v13_apply, val_main_v4_apply]
    refine Eq.trans (congrArg _ (?_ : idx_main_v4 (idx_main_v13 (ix5 b c 0 h w))
      = ix4 b c ⟨h.val + 3 / 3, by omega⟩ ⟨w.val + 3 % 3, by omega⟩)) (padded_read x0 b c _ _)
    funext a; apply Fin.ext
    match a with
    | ⟨0, _⟩ => rfl
    | ⟨1, _⟩ => rfl
    | ⟨2, _⟩ => show 1 + h.val = h.val + 3 / 3; omega
    | ⟨3, _⟩ => show w.val = w.val + 3 % 3; omega
  | ⟨4, hK⟩ =>
    refine Eq.trans (Cert.NineWindows.stack_4 _ _ _ _ _ _ _ _ _ _ b c ⟨4, hK⟩ rfl h w) ?_
    rw [val_main_v14_apply, val_main_v5_apply]
    refine Eq.trans (congrArg _ (?_ : idx_main_v5 (idx_main_v14 (ix5 b c 0 h w))
      = ix4 b c ⟨h.val + 4 / 3, by omega⟩ ⟨w.val + 4 % 3, by omega⟩)) (padded_read x0 b c _ _)
    funext a; apply Fin.ext
    match a with
    | ⟨0, _⟩ => rfl
    | ⟨1, _⟩ => rfl
    | ⟨2, _⟩ => show 1 + h.val = h.val + 4 / 3; omega
    | ⟨3, _⟩ => show 1 + w.val = w.val + 4 % 3; omega
  | ⟨5, hK⟩ =>
    refine Eq.trans (Cert.NineWindows.stack_5 _ _ _ _ _ _ _ _ _ _ b c ⟨5, hK⟩ rfl h w) ?_
    rw [val_main_v15_apply, val_main_v6_apply]
    refine Eq.trans (congrArg _ (?_ : idx_main_v6 (idx_main_v15 (ix5 b c 0 h w))
      = ix4 b c ⟨h.val + 5 / 3, by omega⟩ ⟨w.val + 5 % 3, by omega⟩)) (padded_read x0 b c _ _)
    funext a; apply Fin.ext
    match a with
    | ⟨0, _⟩ => rfl
    | ⟨1, _⟩ => rfl
    | ⟨2, _⟩ => show 1 + h.val = h.val + 5 / 3; omega
    | ⟨3, _⟩ => show 2 + w.val = w.val + 5 % 3; omega
  | ⟨6, hK⟩ =>
    refine Eq.trans (Cert.NineWindows.stack_6 _ _ _ _ _ _ _ _ _ _ b c ⟨6, hK⟩ rfl h w) ?_
    rw [val_main_v16_apply, val_main_v7_apply]
    refine Eq.trans (congrArg _ (?_ : idx_main_v7 (idx_main_v16 (ix5 b c 0 h w))
      = ix4 b c ⟨h.val + 6 / 3, by omega⟩ ⟨w.val + 6 % 3, by omega⟩)) (padded_read x0 b c _ _)
    funext a; apply Fin.ext
    match a with
    | ⟨0, _⟩ => rfl
    | ⟨1, _⟩ => rfl
    | ⟨2, _⟩ => show 2 + h.val = h.val + 6 / 3; omega
    | ⟨3, _⟩ => show w.val = w.val + 6 % 3; omega
  | ⟨7, hK⟩ =>
    refine Eq.trans (Cert.NineWindows.stack_7 _ _ _ _ _ _ _ _ _ _ b c ⟨7, hK⟩ rfl h w) ?_
    rw [val_main_v17_apply, val_main_v8_apply]
    refine Eq.trans (congrArg _ (?_ : idx_main_v8 (idx_main_v17 (ix5 b c 0 h w))
      = ix4 b c ⟨h.val + 7 / 3, by omega⟩ ⟨w.val + 7 % 3, by omega⟩)) (padded_read x0 b c _ _)
    funext a; apply Fin.ext
    match a with
    | ⟨0, _⟩ => rfl
    | ⟨1, _⟩ => rfl
    | ⟨2, _⟩ => show 2 + h.val = h.val + 7 / 3; omega
    | ⟨3, _⟩ => show 1 + w.val = w.val + 7 % 3; omega
  | ⟨8, hK⟩ =>
    refine Eq.trans (Cert.NineWindows.stack_8 _ _ _ _ _ _ _ _ _ _ b c ⟨8, hK⟩ rfl h w) ?_
    rw [val_main_v18_apply, val_main_v9_apply]
    refine Eq.trans (congrArg _ (?_ : idx_main_v9 (idx_main_v18 (ix5 b c 0 h w))
      = ix4 b c ⟨h.val + 8 / 3, by omega⟩ ⟨w.val + 8 % 3, by omega⟩)) (padded_read x0 b c _ _)
    funext a; apply Fin.ext
    match a with
    | ⟨0, _⟩ => rfl
    | ⟨1, _⟩ => rfl
    | ⟨2, _⟩ => show 2 + h.val = h.val + 8 / 3; omega
    | ⟨3, _⟩ => show 2 + w.val = w.val + 8 % 3; omega

/-- The f32 word of `−∞` is the extended reals' bottom. -/
theorem neg_inf : Ideal.ofBits .f32 0xFF800000#32 = ⊥ := by simp [Ideal.ofBits, Ideal.ieee]

/-- One entry of the array the reference reduces: tap `n` of the window at `(b, c, h, w)`. -/
theorem scored_read (x0 : (⟨S8x192x128x128, .f32⟩ : BufTy).Contents (Elt Ideal)) (x1 : (⟨S192x9, .f32⟩ : BufTy).Contents (Elt Ideal))
    (x2 x3 : (⟨S192, .f32⟩ : BufTy).Contents (Elt Ideal)) (b : Fin 8) (c : Fin 192) (n : Fin 9) (h w : Fin 128) :
    val_main_v37 (F := Ideal) x0 x1 x2 x3 (ix5 b c n h w) = tap x0 x1 x2 x3 (ix4 b c h w) n := by
  have e1 : idx_main_v32 (idx_main_v34 (ix5 b c n h w)) = ix4 b c h w := funext fun a => Fin.ext (by
    match a with
    | ⟨0, _⟩ => rfl
    | ⟨1, _⟩ => rfl
    | ⟨2, _⟩ => rfl
    | ⟨3, _⟩ => rfl)
  have e2 : idx_main_v20 (idx_main_v21 (ix4 b c h w)) = ix1 c := funext fun a => Fin.ext (by
    match a with
    | ⟨0, _⟩ => rfl)
  have e3 : idx_main_v23 (idx_main_v24 (ix4 b c h w)) = ix1 c := funext fun a => Fin.ext (by
    match a with
    | ⟨0, _⟩ => rfl)
  have e4 : idx_main_v33 (idx_main_v35 (ix5 b c n h w)) = ix2 c n := funext fun a => Fin.ext (by
    match a with
    | ⟨0, _⟩ => rfl
    | ⟨1, _⟩ => rfl)
  rw [val_main_v37_apply, stacked_read, val_main_v36_apply, val_main_v34_apply, val_main_v32_apply, e1, val_main_v31_apply,
    val_main_v30_apply, val_main_cst_0_apply, val_main_v29_apply, val_main_v28_apply, val_main_cst_apply, val_main_v27_apply,
    val_main_v26_apply, val_main_v25_apply, val_main_v22_apply, val_main_v21_apply, val_main_v20_apply, e2, val_main_v24_apply,
    val_main_v23_apply, e3, val_main_v35_apply, val_main_v33_apply, e4]
  simp only [Ideal.ofBits_def, Ideal.ofBits_one_f32]
  rfl

/-- The index over `(b, c, h, w)` whose coordinate on the stacked axis is `n`. -/
theorem lift_read (hred : S8x192x9x128x128.Reduces [(2 : Fin 5)] S8x192x128x128) (b : Fin 8) (c : Fin 192) (h w : Fin 128)
    (n : Fin 9) : hred.lift (ix4 b c h w) n = ix5 b c n h w :=
  funext fun a => Fin.ext (by
    match a with
    | ⟨0, _⟩ => rfl
    | ⟨1, _⟩ => rfl
    | ⟨2, _⟩ => rfl
    | ⟨3, _⟩ => rfl
    | ⟨4, _⟩ => rfl)

/-- A `max`-reduce of the stacked axis, read at `(b, c, h, w)`: the fold of `max` from the initial value over the nine
    entries above that index. -/
theorem reduce_read (X : S8x192x9x128x128.Idx → EReal) (init : S_.Idx → EReal) (b : Fin 8) (c : Fin 192) (h w : Fin 128) :
    Host.reduce (FloatOps.maximumf (F := Ideal) (φ := .f32)) X init reducesTo_S8x192x9x128x128_S8x192x128x128_d2 h_S_ (ix4 b c h w)
      = (Finset.univ : Finset (Fin 9)).fold max (init (Shape.Idx.first h_S_)) (fun n => X (ix5 b c n h w)) := by
  have hred : S8x192x9x128x128.Reduces [(2 : Fin 5)] S8x192x128x128 := by decide
  rw [Host.reduce_eq_fold_single (FloatOps.maximumf (F := Ideal) (φ := .f32)) X init
    reducesTo_S8x192x9x128x128_S8x192x128x128_d2 hred h_S_ (ix4 b c h w)]
  have e : (X ∘ hred.lift (ix4 b c h w)) = fun n : Fin 9 => X (ix5 b c n h w) :=
    funext fun n => congrArg X (lift_read hred b c h w n)
  rw [e]
  rfl

/-- THE REFERENCE'S RESULT is `maxPlus` of its four arguments. -/
theorem result_eq (x0 : (⟨S8x192x128x128, .f32⟩ : BufTy).Contents (Elt Ideal)) (x1 : (⟨S192x9, .f32⟩ : BufTy).Contents (Elt Ideal))
    (x2 x3 : (⟨S192, .f32⟩ : BufTy).Contents (Elt Ideal)) :
    val_main_v38 (F := Ideal) x0 x1 x2 x3 = maxPlus x0 x1 x2 x3 := by
  funext i
  obtain ⟨b, c, h, w, rfl⟩ : ∃ (b : Fin 8) (c : Fin 192) (h w : Fin 128), i = ix4 b c h w := ⟨i 0, i 1, i 2, i 3, eq_ix4 i⟩
  unfold val_main_v38
  rw [reduce_read, val_main_cst_1_apply]
  simp only [scored_read]
  rw [Ideal.ofBits_def, neg_inf]
  exact fold_max_nine _

end Cert.ReferenceIdeal.RefValue

end
-- ==== Proof.lean ====
/-
  A max-plus 3 × 3 morphological filter with a sigmoid gate: for an image `x[b, c, h, w]` (8 × 192 × 128 × 128), tap
  coefficients `k[c, n]` (`n = 3 i + j` over the window), and per-channel gate coefficients `gw[c]`, `gb[c]`,

      out[b, c, h, w] = max over n < 9 of ( x̄[b, c, h + n / 3, w + n % 3] + σ(x[b, c, h, w] · gw[c] + gb[c]) · k[c, n] ),

  `x̄` the image with a border of one zero around each plane and `σ(z) = 1 / (1 + e^(−z))`.

  The kernel works plane block by plane block (one image, 24 channels at a time): it borders its block with zeros by two
  joins, takes the nine shifted windows as slices, and keeps a running maximum of window + gate · coefficient, the gate
  computed by the one logistic operation. The reference borders the whole image with one pad, stacks the nine shifted
  windows along a new axis, adds gate · coefficient with the gate spelt `1 / (1 + exp(−z))`, and reduces the new axis with
  `max` from `−∞`. Over the extended reals both are the function `MaxPlus.maxPlus` of the four arguments:
  * the border is per plane, so a window of a bordered block is the same window of the bordered image (KernelIsMaxPlus);
  * the logistic function of the extended reals IS `1 / (1 + exp(−z))`, and the integer 0 converted, the kernel's zero
    word and the real 0 are one number (RefIsMaxPlus, KernelTaps);
  * a fold of `max` from `−∞` over nine numbers is their chain of binary maxima, by commutativity, associativity and
    `−∞` being the identity of `max` — laws that hold at the infinities too, so the precondition (finite inputs) is never
    opened (MaxPlus).
  The kernel's 64 blocks tile the result array, each written once. The ideal pass rewrote nothing, so `preserves` has
  nothing to say. The three frames are the generated frame certificates and the generated run of the reference.
-/
import proofs.«158425_j28527172780064_2_alg».proof.Defs
import proofs.«158425_j28527172780064_2_alg».proof.Proof.Gen.Kernel
import proofs.«158425_j28527172780064_2_alg».proof.Proof.Gen.Kernel.Skeleton
import proofs.«158425_j28527172780064_2_alg».proof.Proof.Gen.Kernel.Launch
import proofs.«158425_j28527172780064_2_alg».proof.Proof.Gen.Kernel.Points
import proofs.«158425_j28527172780064_2_alg».proof.Proof.Gen.Kernel.Frame
import proofs.«158425_j28527172780064_2_alg».proof.Proof.Gen.KernelIdeal
import proofs.«158425_j28527172780064_2_alg».proof.Proof.Gen.KernelIdeal.Skeleton
import proofs.«158425_j28527172780064_2_alg».proof.Proof.Gen.KernelIdeal.Launch
import proofs.«158425_j28527172780064_2_alg».proof.Proof.Gen.KernelIdeal.Points
import proofs.«158425_j28527172780064_2_alg».proof.Proof.Gen.KernelIdeal.Frame
import proofs.«158425_j28527172780064_2_alg».proof.Proof.Gen.ReferenceIdeal
import proofs.«158425_j28527172780064_2_alg».proof.Proof.Gen.Pre_finite_inputs
import proofs.«158425_j28527172780064_2_alg».proof.Proof.Gen.ReferenceIdeal.Run
import proofs.«158425_j28527172780064_2_alg».proof.Proof.Gen.ReferenceIdeal.Read
import proofs.«158425_j28527172780064_2_alg».proof.Proof.MaxPlus
import proofs.«158425_j28527172780064_2_alg».proof.Proof.KernelIsMaxPlus
import proofs.«158425_j28527172780064_2_alg».proof.Proof.RefIsMaxPlus
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: no rewrite to account for. -/
theorem preserves : Cert.preserves_Kernel_KernelIdeal := trivial

/-- Both programs end with `maxPlus` of the (agreeing) arguments in their result arrays. -/
theorem algebraic : Cert.algebraic_KernelIdeal_ReferenceIdeal := by
  intro m ρ m' ρ' _ hagree
  refine ⟨fun c => Cert.MaxPlus.maxPlus
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
